-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x262144x2 : Shape := ⟨3, ![3, 262144, 2]⟩
abbrev S3x128x128 : Shape := ⟨3, ![3, 128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_

variable [Facts]

def fn {F : FTy → Type} [FloatOps F] (main_arg0 : FVec F S50000x128 .f32) (main_arg1 : IVec S3x262144x2 32) (main_arg2 : FVec F S3x128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  main_v8
-- ==== Kernel.lean ====
abbrev S50000x128 : Shape := ⟨2, ![50000, 128]⟩
abbrev S3x262144x2 : Shape := ⟨3, ![3, 262144, 2]⟩
abbrev S3x128x128 : Shape := ⟨3, ![3, 128, 128]⟩
abbrev S3x50000x128 : Shape := ⟨3, ![3, 50000, 128]⟩
abbrev S5000x128 : Shape := ⟨2, ![5000, 128]⟩
abbrev S3x5000x128 : Shape := ⟨3, ![3, 5000, 128]⟩
abbrev S1x128x128 : Shape := ⟨3, ![1, 128, 128]⟩
abbrev S128x128 : Shape := ⟨2, ![128, 128]⟩
abbrev S1x5000x128 : Shape := ⟨3, ![1, 5000, 128]⟩
abbrev S_ : Shape := ⟨0, ![]⟩
abbrev S1x262144x1 : Shape := ⟨3, ![1, 262144, 1]⟩
abbrev S262144 : Shape := ⟨1, ![262144]⟩
abbrev S50000 : Shape := ⟨1, ![50000]⟩
abbrev S262144x1 : Shape := ⟨2, ![262144, 1]⟩
abbrev S1x50000x128 : Shape := ⟨3, ![1, 50000, 128]⟩
abbrev S262144x128 : Shape := ⟨2, ![262144, 128]⟩

abbrev nBuf : Space → Nat
  | .hbm => 132
  | .vmem => 5
  | .smem => 0
  | _ => 0

abbrev hbmTy0_0 (i : Nat) : BufTy := match i % 128 with
  | 0 => ⟨S50000x128, .f32⟩
  | 1 => ⟨S3x262144x2, .i32⟩
  | 2 => ⟨S3x128x128, .f32⟩
  | 3 => ⟨S3x50000x128, .f32⟩
  | 4 => ⟨S_, .f32⟩
  | 5 => ⟨S50000x128, .f32⟩
  | 6 => ⟨S1x262144x1, .i32⟩
  | 7 => ⟨S262144, .i32⟩
  | 8 => ⟨S1x262144x1, .i32⟩
  | 9 => ⟨S262144, .i32⟩
  | 10 => ⟨S_, .f32⟩
  | 11 => ⟨S262144, .f32⟩
  | 12 => ⟨S_, .f32⟩
  | 13 => ⟨S50000, .f32⟩
  | 14 => ⟨S262144x1, .i32⟩
  | 15 => ⟨S50000, .f32⟩
  | 16 => ⟨S_, .i32⟩
  | 17 => ⟨S262144, .i32⟩
  | 18 => ⟨S262144, .i1⟩
  | 19 => ⟨S_, .i32⟩
  | 20 => ⟨S262144, .i32⟩
  | 21 => ⟨S262144, .i32⟩
  | 22 => ⟨S262144, .i32⟩
  | 23 => ⟨S262144x1, .i32⟩
  | 24 => ⟨S262144, .f32⟩
  | 25 => ⟨S_, .f32⟩
  | 26 => ⟨S262144, .f32⟩
  | 27 => ⟨S262144, .f32⟩
  | 28 => ⟨S262144, .f32⟩
  | 29 => ⟨S1x50000x128, .f32⟩
  | 30 => ⟨S50000x128, .f32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S262144x128, .f32⟩
  | 40 => ⟨S262144x1, .f32⟩
  | 41 => ⟨S262144x128, .f32⟩
  | 42 => ⟨S262144x128, .f32⟩
  | 43 => ⟨S_, .f32⟩
  | 44 => ⟨S50000x128, .f32⟩
  | 45 => ⟨S262144x1, .i32⟩
  | 46 => ⟨S50000x128, .f32⟩
  | 47 => ⟨S50000x128, .f32⟩
  | 48 => ⟨S1x262144x1, .i32⟩
  | 49 => ⟨S262144, .i32⟩
  | 50 => ⟨S1x262144x1, .i32⟩
  | 51 => ⟨S262144, .i32⟩
  | 52 => ⟨S_, .f32⟩
  | 53 => ⟨S262144, .f32⟩
  | 54 => ⟨S_, .f32⟩
  | 55 => ⟨S50000, .f32⟩
  | 56 => ⟨S262144x1, .i32⟩
  | 57 => ⟨S50000, .f32⟩
  | 58 => ⟨S_, .i32⟩
  | 59 => ⟨S262144, .i32⟩
  | 60 => ⟨S262144, .i1⟩
  | 61 => ⟨S_, .i32⟩
  | 62 => ⟨S262144, .i32⟩
  | 63 => ⟨S262144, .i32⟩
  | 64 => ⟨S262144, .i32⟩
  | 65 => ⟨S262144x1, .i32⟩
  | 66 => ⟨S262144, .f32⟩
  | 67 => ⟨S_, .f32⟩
  | 68 => ⟨S262144, .f32⟩
  | 69 => ⟨S262144, .f32⟩
  | 70 => ⟨S262144, .f32⟩
  | 71 => ⟨S1x50000x128, .f32⟩
  | 72 => ⟨S50000x128, .f32⟩
  | 73 => ⟨S_, .i32⟩
  | 74 => ⟨S262144, .i32⟩
  | 75 => ⟨S262144, .i1⟩
  | 76 => ⟨S_, .i32⟩
  | 77 => ⟨S262144, .i32⟩
  | 78 => ⟨S262144, .i32⟩
  | 79 => ⟨S262144, .i32⟩
  | 80 => ⟨S262144x1, .i32⟩
  | 81 => ⟨S262144x128, .f32⟩
  | 82 => ⟨S262144x1, .f32⟩
  | 83 => ⟨S262144x128, .f32⟩
  | 84 => ⟨S262144x128, .f32⟩
  | 85 => ⟨S_, .f32⟩
  | 86 => ⟨S50000x128, .f32⟩
  | 87 => ⟨S262144x1, .i32⟩
  | 88 => ⟨S50000x128, .f32⟩
  | 89 => ⟨S50000x128, .f32⟩
  | 90 => ⟨S1x262144x1, .i32⟩
  | 91 => ⟨S262144, .i32⟩
  | 92 => ⟨S1x262144x1, .i32⟩
  | 93 => ⟨S262144, .i32⟩
  | 94 => ⟨S_, .f32⟩
  | 95 => ⟨S262144, .f32⟩
  | 96 => ⟨S_, .f32⟩
  | 97 => ⟨S50000, .f32⟩
  | 98 => ⟨S262144x1, .i32⟩
  | 99 => ⟨S50000, .f32⟩
  | 100 => ⟨S_, .i32⟩
  | 101 => ⟨S262144, .i32⟩
  | 102 => ⟨S262144, .i1⟩
  | 103 => ⟨S_, .i32⟩
  | 104 => ⟨S262144, .i32⟩
  | 105 => ⟨S262144, .i32⟩
  | 106 => ⟨S262144, .i32⟩
  | 107 => ⟨S262144x1, .i32⟩
  | 108 => ⟨S262144, .f32⟩
  | 109 => ⟨S_, .f32⟩
  | 110 => ⟨S262144, .f32⟩
  | 111 => ⟨S262144, .f32⟩
  | 112 => ⟨S262144, .f32⟩
  | 113 => ⟨S1x50000x128, .f32⟩
  | 114 => ⟨S50000x128, .f32⟩
  | 115 => ⟨S_, .i32⟩
  | 116 => ⟨S262144, .i32⟩
  | 117 => ⟨S262144, .i1⟩
  | 118 => ⟨S_, .i32⟩
  | 119 => ⟨S262144, .i32⟩
  | 120 => ⟨S262144, .i32⟩
  | 121 => ⟨S262144, .i32⟩
  | 122 => ⟨S262144x1, .i32⟩
  | 123 => ⟨S262144x128, .f32⟩
  | 124 => ⟨S262144x1, .f32⟩
  | 125 => ⟨S262144x128, .f32⟩
  | 126 => ⟨S262144x128, .f32⟩
  | 127 => ⟨S_, .f32⟩
  | _ => ⟨S50000x128, .f32⟩

abbrev hbmTy0_1 (i : Nat) : BufTy := match i % 128 with
  | 0 => ⟨S50000x128, .f32⟩
  | 1 => ⟨S262144x1, .i32⟩
  | 2 => ⟨S50000x128, .f32⟩
  | 3 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S3x128x128, .f32⟩
  | .local _ .vmem, ⟨3, _⟩ => ⟨S3x5000x128, .f32⟩
  | .local _ .vmem, ⟨4, _⟩ => ⟨S3x5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_9 : Ref sig .tc := ⟨.hbm, 58, rfl⟩
abbrev main_v44 : Ref sig .tc := ⟨.hbm, 59, rfl⟩
abbrev main_v45 : Ref sig .tc := ⟨.hbm, 60, rfl⟩
abbrev main_c_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_12 : Ref sig .tc := ⟨.hbm, 73, rfl⟩
abbrev main_v56 : Ref sig .tc := ⟨.hbm, 74, rfl⟩
abbrev main_v57 : Ref sig .tc := ⟨.hbm, 75, rfl⟩
abbrev main_c_13 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_cst_16 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_17 : Ref sig .tc := ⟨.hbm, 100, rfl⟩
abbrev main_v78 : Ref sig .tc := ⟨.hbm, 101, rfl⟩
abbrev main_v79 : Ref sig .tc := ⟨.hbm, 102, rfl⟩
abbrev main_c_18 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_19 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_c_20 : Ref sig .tc := ⟨.hbm, 115, rfl⟩
abbrev main_v90 : Ref sig .tc := ⟨.hbm, 116, rfl⟩
abbrev main_v91 : Ref sig .tc := ⟨.hbm, 117, rfl⟩
abbrev main_c_21 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_22 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x5000x128_S1x5000x128_0_0_0 : ∀ a, (![0, 0, 0] : Fin 3 → Nat) a + S1x5000x128.size a ≤ S3x5000x128.size a
  h_S1x5000x128 : 0 < S1x5000x128.numel
  shapeCasts_S1x5000x128_S5000x128 : S1x5000x128.ShapeCasts S5000x128
  shapeCasts_S5000x128_S1x5000x128 : S5000x128.ShapeCasts S1x5000x128
  inb_S3x128x128_S1x128x128_1_0_0 : ∀ a, (![1, 0, 0] : Fin 3 → Nat) a + S1x128x128.size a ≤ S3x128x128.size a
  inb_S3x5000x128_S1x5000x128_1_0_0 : ∀ a, (![1, 0, 0] : Fin 3 → Nat) a + S1x5000x128.size a ≤ S3x5000x128.size a
  inb_S3x128x128_S1x128x128_2_0_0 : ∀ a, (![2, 0, 0] : Fin 3 → Nat) a + S1x128x128.size a ≤ S3x128x128.size a
  inb_S3x5000x128_S1x5000x128_2_0_0 : ∀ a, (![2, 0, 0] : Fin 3 → Nat) a + S1x5000x128.size a ≤ S3x5000x128.size a
  bcast_S_S50000x128 : S_.BroadcastsInDim S50000x128 (![] : Fin 0 → Fin S50000x128.rank)
  slices_S3x262144x2_S1x262144x1_0_0_0 : S3x262144x2.Slices ![0, 0, 0] S1x262144x1
  shapeCasts_S1x262144x1_S262144 : S1x262144x1.ShapeCasts S262144
  slices_S3x262144x2_S1x262144x1_0_0_1 : S3x262144x2.Slices ![0, 0, 1] S1x262144x1
  bcast_S_S262144 : S_.BroadcastsInDim S262144 (![] : Fin 0 → Fin S262144.rank)
  bcast_S_S50000 : S_.BroadcastsInDim S50000 (![] : Fin 0 → Fin S50000.rank)
  bcast_S262144_S262144x1_0 : S262144.BroadcastsInDim S262144x1 (![0] : Fin 1 → Fin S262144x1.rank)
  slices_S3x50000x128_S1x50000x128_0_0_0 : S3x50000x128.Slices ![0, 0, 0] S1x50000x128
  shapeCasts_S1x50000x128_S50000x128 : S1x50000x128.ShapeCasts S50000x128
  bcast_S262144x1_S262144x128_0_1 : S262144x1.BroadcastsInDim S262144x128 (![0, 1] : Fin 2 → Fin S262144x128.rank)
  slices_S3x262144x2_S1x262144x1_1_0_0 : S3x262144x2.Slices ![1, 0, 0] S1x262144x1
  slices_S3x262144x2_S1x262144x1_1_0_1 : S3x262144x2.Slices ![1, 0, 1] S1x262144x1
  slices_S3x50000x128_S1x50000x128_1_0_0 : S3x50000x128.Slices ![1, 0, 0] S1x50000x128
  slices_S3x262144x2_S1x262144x1_2_0_0 : S3x262144x2.Slices ![2, 0, 0] S1x262144x1
  slices_S3x262144x2_S1x262144x1_2_0_1 : S3x262144x2.Slices ![2, 0, 1] S1x262144x1
  slices_S3x50000x128_S1x50000x128_2_0_0 : S3x50000x128.Slices ![2, 0, 0] S1x50000x128
  dot_S5000x128_S128x128_S5000x128_1_0_0_1_n_n_wf : DotDims.WF S5000x128 S128x128 S5000x128 [1] [0] [0] [1] [] []
  scatter_S50000_S262144x1_S262144_n_0_0_1_wf : ScatterDims.WF S50000 S262144x1 S262144 [] [0] [0] 1
  gather_S50000_S262144x1_S262144_n_0_n_n_0_1_1_wf : GatherDims.WF S50000 S262144x1 S262144 [] [0] [] [0] [] 1 ![1]
  gather_S50000x128_S262144x1_S262144x128_1_0_n_n_0_1_1128_wf : GatherDims.WF S50000x128 S262144x1 S262144x128 [1] [0] [] [0] [] 1 ![1, 128]
  scatter_S50000x128_S262144x1_S262144x128_1_0_0_1_wf : ScatterDims.WF S50000x128 S262144x1 S262144x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x128.size a ≤ S3x128x128.size a
  hwx0_1 : ∀ i : grid0.Coords, EltTy.bits .f32 = 32 ∨ (Rect.block (s := S3x128x128) S3x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x5000x128.size a ≤ S3x50000x128.size a
  hwx0_2 : ∀ i : grid0.Coords, EltTy.bits .f32 = 32 ∨ (Rect.block (s := S3x50000x128) S3x5000x128.size (cc0_transform_2 i) (hinb0_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S262144x1_S262144_n_0_0_1 : ScatterDims S50000 S262144x1 S262144 where
  updateWindowDims := []
  insertedWindowDims := [0]
  scatterDimsToOperandDims := [0]
  indexVectorDim := 1
  wf := scatter_S50000_S262144x1_S262144_n_0_0_1_wf
def gather_S50000_S262144x1_S262144_n_0_n_n_0_1_1 : GatherDims S50000 S262144x1 S262144 where
  offsetDims := []
  collapsedSliceDims := [0]
  operandBatchingDims := []
  startIndicesBatchingDims := []
  startIndexMap := [0]
  indexVectorDim := 1
  sliceSizes := ![1]
  wf := gather_S50000_S262144x1_S262144_n_0_n_n_0_1_1_wf
def gather_S50000x128_S262144x1_S262144x128_1_0_n_n_0_1_1128 : GatherDims S50000x128 S262144x1 S262144x128 where
  offsetDims := [1]
  collapsedSliceDims := [0]
  operandBatchingDims := []
  startIndicesBatchingDims := []
  startIndexMap := [0]
  indexVectorDim := 1
  sliceSizes := ![1, 128]
  wf := gather_S50000x128_S262144x1_S262144x128_1_0_n_n_0_1_1128_wf
def scatter_S50000x128_S262144x1_S262144x128_1_0_0_1 : ScatterDims S50000x128 S262144x1 S262144x128 where
  updateWindowDims := [1]
  insertedWindowDims := [0]
  scatterDimsToOperandDims := [0]
  indexVectorDim := 1
  wf := scatter_S50000x128_S262144x1_S262144x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S3x262144x2 : Shape := ⟨3, ![3, 262144, 2]⟩
abbrev S3x128x128 : Shape := ⟨3, ![3, 128, 128]⟩
abbrev S_ : Shape := ⟨0, ![]⟩
abbrev S1x262144x1 : Shape := ⟨3, ![1, 262144, 1]⟩
abbrev S262144 : Shape := ⟨1, ![262144]⟩
abbrev S50000 : Shape := ⟨1, ![50000]⟩
abbrev S262144x1 : Shape := ⟨2, ![262144, 1]⟩
abbrev S262144x128 : Shape := ⟨2, ![262144, 128]⟩
abbrev S1x128x128 : Shape := ⟨3, ![1, 128, 128]⟩
abbrev S128x128 : Shape := ⟨2, ![128, 128]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S3x262144x2, .i32⟩
  | 2 => ⟨S3x128x128, .f32⟩
  | 3 => ⟨S_, .f32⟩
  | 4 => ⟨S50000x128, .f32⟩
  | 5 => ⟨S1x262144x1, .i32⟩
  | 6 => ⟨S262144, .i32⟩
  | 7 => ⟨S1x262144x1, .i32⟩
  | 8 => ⟨S262144, .i32⟩
  | 9 => ⟨S_, .f32⟩
  | 10 => ⟨S262144, .f32⟩
  | 11 => ⟨S_, .f32⟩
  | 12 => ⟨S50000, .f32⟩
  | 13 => ⟨S262144x1, .i32⟩
  | 14 => ⟨S50000, .f32⟩
  | 15 => ⟨S_, .i32⟩
  | 16 => ⟨S262144, .i32⟩
  | 17 => ⟨S262144, .i1⟩
  | 18 => ⟨S_, .i32⟩
  | 19 => ⟨S262144, .i32⟩
  | 20 => ⟨S262144, .i32⟩
  | 21 => ⟨S262144, .i32⟩
  | 22 => ⟨S262144x1, .i32⟩
  | 23 => ⟨S262144, .f32⟩
  | 24 => ⟨S_, .f32⟩
  | 25 => ⟨S262144, .f32⟩
  | 26 => ⟨S262144, .f32⟩
  | 27 => ⟨S262144, .f32⟩
  | 28 => ⟨S_, .i32⟩
  | 29 => ⟨S262144, .i32⟩
  | 30 => ⟨S262144, .i1⟩
  | 31 => ⟨S_, .i32⟩
  | 32 => ⟨S262144, .i32⟩
  | 33 => ⟨S262144, .i32⟩
  | 34 => ⟨S262144, .i32⟩
  | 35 => ⟨S262144x1, .i32⟩
  | 36 => ⟨S262144x128, .f32⟩
  | 37 => ⟨S1x128x128, .f32⟩
  | 38 => ⟨S128x128, .f32⟩
  | 39 => ⟨S262144x128, .f32⟩
  | 40 => ⟨S262144x1, .f32⟩
  | 41 => ⟨S262144x128, .f32⟩
  | 42 => ⟨S262144x128, .f32⟩
  | 43 => ⟨S_, .f32⟩
  | 44 => ⟨S50000x128, .f32⟩
  | 45 => ⟨S262144x1, .i32⟩
  | 46 => ⟨S50000x128, .f32⟩
  | 47 => ⟨S50000x128, .f32⟩
  | 48 => ⟨S1x262144x1, .i32⟩
  | 49 => ⟨S262144, .i32⟩
  | 50 => ⟨S1x262144x1, .i32⟩
  | 51 => ⟨S262144, .i32⟩
  | 52 => ⟨S_, .f32⟩
  | 53 => ⟨S262144, .f32⟩
  | 54 => ⟨S_, .f32⟩
  | 55 => ⟨S50000, .f32⟩
  | 56 => ⟨S262144x1, .i32⟩
  | 57 => ⟨S50000, .f32⟩
  | 58 => ⟨S_, .i32⟩
  | 59 => ⟨S262144, .i32⟩
  | 60 => ⟨S262144, .i1⟩
  | 61 => ⟨S_, .i32⟩
  | 62 => ⟨S262144, .i32⟩
  | 63 => ⟨S262144, .i32⟩
  | 64 => ⟨S262144, .i32⟩
  | 65 => ⟨S262144x1, .i32⟩
  | 66 => ⟨S262144, .f32⟩
  | 67 => ⟨S_, .f32⟩
  | 68 => ⟨S262144, .f32⟩
  | 69 => ⟨S262144, .f32⟩
  | 70 => ⟨S262144, .f32⟩
  | 71 => ⟨S_, .i32⟩
  | 72 => ⟨S262144, .i32⟩
  | 73 => ⟨S262144, .i1⟩
  | 74 => ⟨S_, .i32⟩
  | 75 => ⟨S262144, .i32⟩
  | 76 => ⟨S262144, .i32⟩
  | 77 => ⟨S262144, .i32⟩
  | 78 => ⟨S262144x1, .i32⟩
  | 79 => ⟨S262144x128, .f32⟩
  | 80 => ⟨S1x128x128, .f32⟩
  | 81 => ⟨S128x128, .f32⟩
  | 82 => ⟨S262144x128, .f32⟩
  | 83 => ⟨S262144x1, .f32⟩
  | 84 => ⟨S262144x128, .f32⟩
  | 85 => ⟨S262144x128, .f32⟩
  | 86 => ⟨S_, .f32⟩
  | 87 => ⟨S50000x128, .f32⟩
  | 88 => ⟨S262144x1, .i32⟩
  | 89 => ⟨S50000x128, .f32⟩
  | 90 => ⟨S50000x128, .f32⟩
  | 91 => ⟨S1x262144x1, .i32⟩
  | 92 => ⟨S262144, .i32⟩
  | 93 => ⟨S1x262144x1, .i32⟩
  | 94 => ⟨S262144, .i32⟩
  | 95 => ⟨S_, .f32⟩
  | 96 => ⟨S262144, .f32⟩
  | 97 => ⟨S_, .f32⟩
  | 98 => ⟨S50000, .f32⟩
  | 99 => ⟨S262144x1, .i32⟩
  | 100 => ⟨S50000, .f32⟩
  | 101 => ⟨S_, .i32⟩
  | 102 => ⟨S262144, .i32⟩
  | 103 => ⟨S262144, .i1⟩
  | 104 => ⟨S_, .i32⟩
  | 105 => ⟨S262144, .i32⟩
  | 106 => ⟨S262144, .i32⟩
  | 107 => ⟨S262144, .i32⟩
  | 108 => ⟨S262144x1, .i32⟩
  | 109 => ⟨S262144, .f32⟩
  | 110 => ⟨S_, .f32⟩
  | 111 => ⟨S262144, .f32⟩
  | 112 => ⟨S262144, .f32⟩
  | 113 => ⟨S262144, .f32⟩
  | 114 => ⟨S_, .i32⟩
  | 115 => ⟨S262144, .i32⟩
  | 116 => ⟨S262144, .i1⟩
  | 117 => ⟨S_, .i32⟩
  | 118 => ⟨S262144, .i32⟩
  | 119 => ⟨S262144, .i32⟩
  | 120 => ⟨S262144, .i32⟩
  | 121 => ⟨S262144x1, .i32⟩
  | 122 => ⟨S262144x128, .f32⟩
  | 123 => ⟨S1x128x128, .f32⟩
  | 124 => ⟨S128x128, .f32⟩
  | 125 => ⟨S262144x128, .f32⟩
  | 126 => ⟨S262144x1, .f32⟩
  | 127 => ⟨S262144x128, .f32⟩
  | _ => ⟨S50000x128, .f32⟩

abbrev hbmTy0_1 (i : Nat) : BufTy := match i % 128 with
  | 0 => ⟨S262144x128, .f32⟩
  | 1 => ⟨S_, .f32⟩
  | 2 => ⟨S50000x128, .f32⟩
  | 3 => ⟨S262144x1, .i32⟩
  | 4 => ⟨S50000x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_9 : Ref sig .tc := ⟨.hbm, 58, rfl⟩
abbrev main_v44 : Ref sig .tc := ⟨.hbm, 59, rfl⟩
abbrev main_v45 : Ref sig .tc := ⟨.hbm, 60, rfl⟩
abbrev main_c_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_12 : Ref sig .tc := ⟨.hbm, 71, rfl⟩
abbrev main_v54 : Ref sig .tc := ⟨.hbm, 72, rfl⟩
abbrev main_v55 : Ref sig .tc := ⟨.hbm, 73, rfl⟩
abbrev main_c_13 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_15 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_17 : Ref sig .tc := ⟨.hbm, 101, rfl⟩
abbrev main_v79 : Ref sig .tc := ⟨.hbm, 102, rfl⟩
abbrev main_v80 : Ref sig .tc := ⟨.hbm, 103, rfl⟩
abbrev main_c_18 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_19 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_20 : Ref sig .tc := ⟨.hbm, 114, rfl⟩
abbrev main_v89 : Ref sig .tc := ⟨.hbm, 115, rfl⟩
abbrev main_v90 : Ref sig .tc := ⟨.hbm, 116, rfl⟩
abbrev main_c_21 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_22 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S3x262144x2_S1x262144x1_0_0_0 : S3x262144x2.Slices ![0, 0, 0] S1x262144x1
  shapeCasts_S1x262144x1_S262144 : S1x262144x1.ShapeCasts S262144
  slices_S3x262144x2_S1x262144x1_0_0_1 : S3x262144x2.Slices ![0, 0, 1] S1x262144x1
  bcast_S_S262144 : S_.BroadcastsInDim S262144 (![] : Fin 0 → Fin S262144.rank)
  bcast_S_S50000 : S_.BroadcastsInDim S50000 (![] : Fin 0 → Fin S50000.rank)
  bcast_S262144_S262144x1_0 : S262144.BroadcastsInDim S262144x1 (![0] : Fin 1 → Fin S262144x1.rank)
  slices_S3x128x128_S1x128x128_0_0_0 : S3x128x128.Slices ![0, 0, 0] S1x128x128
  shapeCasts_S1x128x128_S128x128 : S1x128x128.ShapeCasts S128x128
  bcast_S262144x1_S262144x128_0_1 : S262144x1.BroadcastsInDim S262144x128 (![0, 1] : Fin 2 → Fin S262144x128.rank)
  slices_S3x262144x2_S1x262144x1_1_0_0 : S3x262144x2.Slices ![1, 0, 0] S1x262144x1
  slices_S3x262144x2_S1x262144x1_1_0_1 : S3x262144x2.Slices ![1, 0, 1] S1x262144x1
  slices_S3x128x128_S1x128x128_1_0_0 : S3x128x128.Slices ![1, 0, 0] S1x128x128
  slices_S3x262144x2_S1x262144x1_2_0_0 : S3x262144x2.Slices ![2, 0, 0] S1x262144x1
  slices_S3x262144x2_S1x262144x1_2_0_1 : S3x262144x2.Slices ![2, 0, 1] S1x262144x1
  slices_S3x128x128_S1x128x128_2_0_0 : S3x128x128.Slices ![2, 0, 0] S1x128x128
  scatter_S50000_S262144x1_S262144_n_0_0_1_wf : ScatterDims.WF S50000 S262144x1 S262144 [] [0] [0] 1
  gather_S50000_S262144x1_S262144_n_0_n_n_0_1_1_wf : GatherDims.WF S50000 S262144x1 S262144 [] [0] [] [0] [] 1 ![1]
  gather_S50000x128_S262144x1_S262144x128_1_0_n_n_0_1_1128_wf : GatherDims.WF S50000x128 S262144x1 S262144x128 [1] [0] [] [0] [] 1 ![1, 128]
  dot_S262144x128_S128x128_S262144x128_1_0_0_1_n_n_wf : DotDims.WF S262144x128 S128x128 S262144x128 [1] [0] [0] [1] [] []
  scatter_S50000x128_S262144x1_S262144x128_1_0_0_1_wf : ScatterDims.WF S50000x128 S262144x1 S262144x128 [1] [0] [0] 1

variable [Facts₀]

def scatter_S50000_S262144x1_S262144_n_0_0_1 : ScatterDims S50000 S262144x1 S262144 where
  updateWindowDims := []
  insertedWindowDims := [0]
  scatterDimsToOperandDims := [0]
  indexVectorDim := 1
  wf := scatter_S50000_S262144x1_S262144_n_0_0_1_wf
def gather_S50000_S262144x1_S262144_n_0_n_n_0_1_1 : GatherDims S50000 S262144x1 S262144 where
  offsetDims := []
  collapsedSliceDims := [0]
  operandBatchingDims := []
  startIndicesBatchingDims := []
  startIndexMap := [0]
  indexVectorDim := 1
  sliceSizes := ![1]
  wf := gather_S50000_S262144x1_S262144_n_0_n_n_0_1_1_wf
def gather_S50000x128_S262144x1_S262144x128_1_0_n_n_0_1_1128 : GatherDims S50000x128 S262144x1 S262144x128 where
  offsetDims := [1]
  collapsedSliceDims := [0]
  operandBatchingDims := []
  startIndicesBatchingDims := []
  startIndexMap := [0]
  indexVectorDim := 1
  sliceSizes := ![1, 128]
  wf := gather_S50000x128_S262144x1_S262144x128_1_0_n_n_0_1_1128_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def scatter_S50000x128_S262144x1_S262144x128_1_0_0_1 : ScatterDims S50000x128 S262144x1 S262144x128 where
  updateWindowDims := [1]
  insertedWindowDims := [0]
  scatterDimsToOperandDims := [0]
  indexVectorDim := 1
  wf := scatter_S50000x128_S262144x1_S262144x128_1_0_0_1_wf

class Facts : Prop extends Facts₀ where

variable [Facts]
-- ==== Proof.RunKernel.lean ====
/-
  @main of this program is one region followed by 128 lines of host operations. This module runs it: the region on
  its grid of ten points, each point's body run once, then the lines.

  The body at a point reads one block of 5000 rows of the node matrix and the three 128x128 weight matrices, and stores
  three products, one per edge type, into the three slabs of its output block; the slabs tile the block. So the
  staging buffer of the output holds, after the body, the three products laid slab by slab (`slabs`), whatever it held
  before (the body also loads each slab before storing it, and uses nothing of what it loaded).

  From that: every weakly fair execution of @main terminates without a fault, the output array ends at the blocks the
  points wrote back, every buffer that bypasses the region ends at what the lines compute (`run_main`), and the three
  argument arrays end as they were launched (`frame`).
-/
import proofs.«112672_j56530359550245_2_alg».proof.Proof.Gen.Kernel.Launch
import proofs.«112672_j56530359550245_2_alg».proof.Proof.Gen.Kernel.Skeleton
import proofs.«112672_j56530359550245_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of 5000 rows is decided by a structural recursion as deep as the long axis
set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: no line precedes the region, so the launch contents. -/
abbrev V0 (c : Dev nD) : Valuation τ sig (Elt F) :=
  StableHlo.after (List.flatten ([] : List (List (HloOp τ sig (Elt F))))) (fun b => m (c, b))
/-- The same at a TensorCore reference. -/
abbrev V (c : Dev nD) (b : Ref sig .tc) : Buf (Elt F) ((c : Thread nD τ).loc b) := V0 m c (Proc.devRef .tc b)

/-- No line after the region allocates. -/
theorem tail_fresh : (hostOps1 : List (HloOp τ sig (Elt F))).Forall fun op => op.fresh = ∅ := by
  simp only [List.Forall]; repeat' constructor

/-- @main is the region continued by the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- The lines touch only the region's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

/-- Each line writes its own result buffer only; none of those is `b` when `b` is an argument or the region's result. -/
local macro "no_line_writes" : tactic => `(tactic| (
  simp only [hostOps1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem tail_keeps_arg0 : (hostOps1 : List (HloOp τ sig (Elt F))).Forall fun op => Proc.devRef .tc main_arg0 ∉ op.writes := by
  no_line_writes
theorem tail_keeps_arg1 : (hostOps1 : List (HloOp τ sig (Elt F))).Forall fun op => Proc.devRef .tc main_arg1 ∉ op.writes := by
  no_line_writes
theorem tail_keeps_arg2 : (hostOps1 : List (HloOp τ sig (Elt F))).Forall fun op => Proc.devRef .tc main_arg2 ∉ op.writes := by
  no_line_writes
theorem tail_keeps_v0 : (hostOps1 : List (HloOp τ sig (Elt F))).Forall fun op => Proc.devRef .tc main_v0 ∉ op.writes := by
  no_line_writes

/-- No line writes an array of the region. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  intro w
  fin_cases w
  · exact (List.forall_iff_forall_mem.mp tail_keeps_arg0) op hop
  · exact (List.forall_iff_forall_mem.mp tail_keeps_arg2) op hop
  · exact (List.forall_iff_forall_mem.mp tail_keeps_v0) op hop

/-! ## The arguments before and after the lines -/

theorem V_eq (c : Dev nD) (b : Ref sig .tc) : V m c b = m ((c : Thread nD τ).loc b) := rfl

/-- A buffer no line writes, and no window stages, ends the lines as the region found it. -/
theorem tail_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [List.flatten_cons, List.flatten_nil, List.append_nil]; exact tail_keeps_arg1)),
    Pipeline.withArrays_of_ne _ c (V0 m c) _ main_arg1 (by exact (by decide : ∀ w, Pipeline.arrRef spec0 w ≠ main_arg1))]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The node matrix's staging buffer holds the point's block of rows, for any proof data that leaves it there. -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weights' staging buffer holds all three matrices at every point, though they are fetched at the first only. -/
theorem before_weights_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole block of rows, the three weight matrices inside their buffer, the three slabs of the output block. -/
abbrev rRows : Rect S5000x128 := Rect.unit (s := S5000x128) ![0, 0] S5000x128.size inb_S5000x128_S5000x128_0_0
abbrev rW0 : Rect S3x128x128 := Rect.unit (s := S3x128x128) ![0, 0, 0] S1x128x128.size inb_S3x128x128_S1x128x128_0_0_0
abbrev rW1 : Rect S3x128x128 := Rect.unit (s := S3x128x128) ![1, 0, 0] S1x128x128.size inb_S3x128x128_S1x128x128_1_0_0
abbrev rW2 : Rect S3x128x128 := Rect.unit (s := S3x128x128) ![2, 0, 0] S1x128x128.size inb_S3x128x128_S1x128x128_2_0_0
abbrev rY0 : Rect S3x5000x128 := Rect.unit (s := S3x5000x128) ![0, 0, 0] S1x5000x128.size inb_S3x5000x128_S1x5000x128_0_0_0
abbrev rY1 : Rect S3x5000x128 := Rect.unit (s := S3x5000x128) ![1, 0, 0] S1x5000x128.size inb_S3x5000x128_S1x5000x128_1_0_0
abbrev rY2 : Rect S3x5000x128 := Rect.unit (s := S3x5000x128) ![2, 0, 0] S1x5000x128.size inb_S3x5000x128_S1x5000x128_2_0_0

/-- The output block after the body: the product by the third weight matrix over slab 2, by the second over slab 1,
    by the first over slab 0 (the last store first). -/
def slabs (x : Vec F S5000x128 .f32) (w : Vec F S3x128x128 .f32) : Vec F S3x5000x128 .f32 :=
  View.canon [⟨rY2, k0_pay4 (View.ld x rRows) (View.ld w rW2)⟩, ⟨rY1, k0_pay3 (View.ld x rRows) (View.ld w rW1)⟩,
    ⟨rY0, k0_pay2 (View.ld x rRows) (View.ld w rW0)⟩]

/-- The three slabs tile the block. -/
theorem slabs_cover (p2 p1 p0 : Vec F S1x5000x128 .f32) (y : S3x5000x128.Idx) :
    ∃ pc ∈ ([⟨rY2, p2⟩, ⟨rY1, p1⟩, ⟨rY0, p0⟩] : List (View.Piece (Elt F) S3x5000x128 .f32)), y ∈ pc.1.set :=
  View.cover_of_tiled [⟨rY2, p2⟩, ⟨rY1, p1⟩, ⟨rY0, p0⟩] S1x5000x128.size (by rfl) y

set_option maxHeartbeats 2000000 in
/-- The body on whole staging buffers, the inputs' at `x` and `w`, the output's at anything: it returns with the inputs'
    as they were and the output's at `slabs x w`. -/
theorem sound_kernel (c : Dev nD) (E : Set ℕ) (i : grid0.Coords)
    (arg1 : Memref sig .tc .vmem S5000x128 .f32) (harg1 : arg1.IsWhole)
    (arg2 : Memref sig .tc .vmem S3x128x128 .f32) (harg2 : arg2.IsWhole)
    (arg3 : Memref sig .tc .vmem S3x5000x128 .f32) (harg3 : arg3.IsWhole)
    (x : Vec F S5000x128 .f32) (w : Vec F S3x128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (slabs x w)) -∗ K ⟨⟩))
      ⊢ wp frame (wpE (defs₀ (F := F)) Variants.none c none) E (cc0__dense_transform_kernel i arg1 harg1 arg2 harg2 arg3 harg3) K := by
  simp only [cc0__dense_transform_kernel_eq_skeleton]; unfold cc0__dense_transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slabs_cover _ _ _)

/-! ## The proof data -/

/-- On core `c`: the arrays as the region finds them; after the body at point `t` each input's buffer at its block and
    the output's at `slabs` of the two input blocks; the invariant the untouched scoped rest and generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => slabs (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_weights (c : Dev nD) (t : Fin cfg0.N) : (dats m 0 c).after 1 t = iblk m c 1 t := by dsimp only [dats]
theorem after_out (c : Dev nD) (t : Fin cfg0.N) : (dats m 0 c).after 2 t = slabs (iblk m c 0 t) (iblk m c 1 t) := by
  dsimp only [dats]

theorem before_rows (c : Dev nD) (t : Fin cfg0.N) (d) : (dats m 0 c).before 0 t d = iblk m c 0 t :=
  before_rows_of m (dats m 0 c) (A_eq m c 0) (after_rows m c) t d
theorem before_weights (c : Dev nD) (t : Fin cfg0.N) (d) : (dats m 0 c).before 1 t d = iblk m c 1 t :=
  before_weights_of m (dats m 0 c) (A_eq m c 1) (after_weights m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_weights]
  rw [show (dats m 0 c).Φ t.succ = (dats m 0 c).Φ t.castSucc from rfl,
    show (dats m 0 c).owesAt () t.succ = (dats m 0 c).owesAt () t.castSucc from rfl,
    after_rows, after_weights, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end the region's arrays hold what the proof data say and
    every bypassing buffer what the lines compute from the region's exit. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_alloc) (hkeep := tail_keeps)
    (hmain := hmain m Variants.none) (hA := A_eq m) (hΦ := fun _ _ => rfl)

/-- The three argument arrays end as launched: the node matrix and the weights are staged inputs, which the region
    never writes back; the adjacency array bypasses the region and no line writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).2 main_arg1 (Pipeline.mem_restRefs_of main_arg1 (by decide) (by decide))).trans (tail_arg1 m (dats m) c),
     ((h c).1 1).trans (((dats m 0 c).arrAt_in 1 rfl _).trans (A_eq m c 1))⟩) (run_main m ρ)

end Cert.Kernel.Around

end
-- ==== Proof.RunKernelIdeal.lean ====
/-
  @main of this program is one region followed by 128 lines of host operations. This module runs it: the region on
  its grid of ten points, each point's body run once, then the lines.

  The body at a point reads one block of 5000 rows of the node matrix and the three 128x128 weight matrices, and stores
  three products, one per edge type, into the three slabs of its output block; the slabs tile the block. So the
  staging buffer of the output holds, after the body, the three products laid slab by slab (`slabs`), whatever it held
  before (the body also loads each slab before storing it, and uses nothing of what it loaded).

  From that: every weakly fair execution of @main terminates without a fault, the output array ends at the blocks the
  points wrote back, every buffer that bypasses the region ends at what the lines compute (`run_main`), and the three
  argument arrays end as they were launched (`frame`).
-/
import proofs.«112672_j56530359550245_2_alg».proof.Proof.Gen.KernelIdeal.Launch
import proofs.«112672_j56530359550245_2_alg».proof.Proof.Gen.KernelIdeal.Skeleton
import proofs.«112672_j56530359550245_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 5000 rows is decided by a structural recursion as deep as the long axis
set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: no line precedes the region, so the launch contents. -/
abbrev V0 (c : Dev nD) : Valuation τ sig (Elt F) :=
  StableHlo.after (List.flatten ([] : List (List (HloOp τ sig (Elt F))))) (fun b => m (c, b))
/-- The same at a TensorCore reference. -/
abbrev V (c : Dev nD) (b : Ref sig .tc) : Buf (Elt F) ((c : Thread nD τ).loc b) := V0 m c (Proc.devRef .tc b)

/-- No line after the region allocates. -/
theorem tail_fresh : (hostOps1 : List (HloOp τ sig (Elt F))).Forall fun op => op.fresh = ∅ := by
  simp only [List.Forall]; repeat' constructor

/-- @main is the region continued by the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- The lines touch only the region's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

/-- Each line writes its own result buffer only; none of those is `b` when `b` is an argument or the region's result. -/
local macro "no_line_writes" : tactic => `(tactic| (
  simp only [hostOps1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem tail_keeps_arg0 : (hostOps1 : List (HloOp τ sig (Elt F))).Forall fun op => Proc.devRef .tc main_arg0 ∉ op.writes := by
  no_line_writes
theorem tail_keeps_arg1 : (hostOps1 : List (HloOp τ sig (Elt F))).Forall fun op => Proc.devRef .tc main_arg1 ∉ op.writes := by
  no_line_writes
theorem tail_keeps_arg2 : (hostOps1 : List (HloOp τ sig (Elt F))).Forall fun op => Proc.devRef .tc main_arg2 ∉ op.writes := by
  no_line_writes
theorem tail_keeps_v0 : (hostOps1 : List (HloOp τ sig (Elt F))).Forall fun op => Proc.devRef .tc main_v0 ∉ op.writes := by
  no_line_writes

/-- No line writes an array of the region. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  intro w
  fin_cases w
  · exact (List.forall_iff_forall_mem.mp tail_keeps_arg0) op hop
  · exact (List.forall_iff_forall_mem.mp tail_keeps_arg2) op hop
  · exact (List.forall_iff_forall_mem.mp tail_keeps_v0) op hop

/-! ## The arguments before and after the lines -/

theorem V_eq (c : Dev nD) (b : Ref sig .tc) : V m c b = m ((c : Thread nD τ).loc b) := rfl

/-- A buffer no line writes, and no window stages, ends the lines as the region found it. -/
theorem tail_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [List.flatten_cons, List.flatten_nil, List.append_nil]; exact tail_keeps_arg1)),
    Pipeline.withArrays_of_ne _ c (V0 m c) _ main_arg1 (by exact (by decide : ∀ w, Pipeline.arrRef spec0 w ≠ main_arg1))]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The node matrix's staging buffer holds the point's block of rows, for any proof data that leaves it there. -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weights' staging buffer holds all three matrices at every point, though they are fetched at the first only. -/
theorem before_weights_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole block of rows, the three weight matrices inside their buffer, the three slabs of the output block. -/
abbrev rRows : Rect S5000x128 := Rect.unit (s := S5000x128) ![0, 0] S5000x128.size inb_S5000x128_S5000x128_0_0
abbrev rW0 : Rect S3x128x128 := Rect.unit (s := S3x128x128) ![0, 0, 0] S1x128x128.size inb_S3x128x128_S1x128x128_0_0_0
abbrev rW1 : Rect S3x128x128 := Rect.unit (s := S3x128x128) ![1, 0, 0] S1x128x128.size inb_S3x128x128_S1x128x128_1_0_0
abbrev rW2 : Rect S3x128x128 := Rect.unit (s := S3x128x128) ![2, 0, 0] S1x128x128.size inb_S3x128x128_S1x128x128_2_0_0
abbrev rY0 : Rect S3x5000x128 := Rect.unit (s := S3x5000x128) ![0, 0, 0] S1x5000x128.size inb_S3x5000x128_S1x5000x128_0_0_0
abbrev rY1 : Rect S3x5000x128 := Rect.unit (s := S3x5000x128) ![1, 0, 0] S1x5000x128.size inb_S3x5000x128_S1x5000x128_1_0_0
abbrev rY2 : Rect S3x5000x128 := Rect.unit (s := S3x5000x128) ![2, 0, 0] S1x5000x128.size inb_S3x5000x128_S1x5000x128_2_0_0

/-- The output block after the body: the product by the third weight matrix over slab 2, by the second over slab 1,
    by the first over slab 0 (the last store first). -/
def slabs (x : Vec F S5000x128 .f32) (w : Vec F S3x128x128 .f32) : Vec F S3x5000x128 .f32 :=
  View.canon [⟨rY2, k0_pay4 (View.ld x rRows) (View.ld w rW2)⟩, ⟨rY1, k0_pay3 (View.ld x rRows) (View.ld w rW1)⟩,
    ⟨rY0, k0_pay2 (View.ld x rRows) (View.ld w rW0)⟩]

/-- The three slabs tile the block. -/
theorem slabs_cover (p2 p1 p0 : Vec F S1x5000x128 .f32) (y : S3x5000x128.Idx) :
    ∃ pc ∈ ([⟨rY2, p2⟩, ⟨rY1, p1⟩, ⟨rY0, p0⟩] : List (View.Piece (Elt F) S3x5000x128 .f32)), y ∈ pc.1.set :=
  View.cover_of_tiled [⟨rY2, p2⟩, ⟨rY1, p1⟩, ⟨rY0, p0⟩] S1x5000x128.size (by rfl) y

set_option maxHeartbeats 2000000 in
/-- The body on whole staging buffers, the inputs' at `x` and `w`, the output's at anything: it returns with the inputs'
    as they were and the output's at `slabs x w`. -/
theorem sound_kernel (c : Dev nD) (E : Set ℕ) (i : grid0.Coords)
    (arg1 : Memref sig .tc .vmem S5000x128 .f32) (harg1 : arg1.IsWhole)
    (arg2 : Memref sig .tc .vmem S3x128x128 .f32) (harg2 : arg2.IsWhole)
    (arg3 : Memref sig .tc .vmem S3x5000x128 .f32) (harg3 : arg3.IsWhole)
    (x : Vec F S5000x128 .f32) (w : Vec F S3x128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (slabs x w)) -∗ K ⟨⟩))
      ⊢ wp frame (wpE (defs₀ (F := F)) Variants.none c none) E (cc0__dense_transform_kernel i arg1 harg1 arg2 harg2 arg3 harg3) K := by
  simp only [cc0__dense_transform_kernel_eq_skeleton]; unfold cc0__dense_transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slabs_cover _ _ _)

/-! ## The proof data -/

/-- On core `c`: the arrays as the region finds them; after the body at point `t` each input's buffer at its block and
    the output's at `slabs` of the two input blocks; the invariant the untouched scoped rest and generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => slabs (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_weights (c : Dev nD) (t : Fin cfg0.N) : (dats m 0 c).after 1 t = iblk m c 1 t := by dsimp only [dats]
theorem after_out (c : Dev nD) (t : Fin cfg0.N) : (dats m 0 c).after 2 t = slabs (iblk m c 0 t) (iblk m c 1 t) := by
  dsimp only [dats]

theorem before_rows (c : Dev nD) (t : Fin cfg0.N) (d) : (dats m 0 c).before 0 t d = iblk m c 0 t :=
  before_rows_of m (dats m 0 c) (A_eq m c 0) (after_rows m c) t d
theorem before_weights (c : Dev nD) (t : Fin cfg0.N) (d) : (dats m 0 c).before 1 t d = iblk m c 1 t :=
  before_weights_of m (dats m 0 c) (A_eq m c 1) (after_weights m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_weights]
  rw [show (dats m 0 c).Φ t.succ = (dats m 0 c).Φ t.castSucc from rfl,
    show (dats m 0 c).owesAt () t.succ = (dats m 0 c).owesAt () t.castSucc from rfl,
    after_rows, after_weights, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end the region's arrays hold what the proof data say and
    every bypassing buffer what the lines compute from the region's exit. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_alloc) (hkeep := tail_keeps)
    (hmain := hmain m Variants.none) (hA := A_eq m) (hΦ := fun _ _ => rfl)

/-- The three argument arrays end as launched: the node matrix and the weights are staged inputs, which the region
    never writes back; the adjacency array bypasses the region and no line writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).2 main_arg1 (Pipeline.mem_restRefs_of main_arg1 (by decide) (by decide))).trans (tail_arg1 m (dats m) c),
     ((h c).1 1).trans (((dats m 0 c).arrAt_in 1 rfl _).trans (A_eq m c 1))⟩) (run_main m ρ)

end Cert.KernelIdeal.Around

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.Products.lean ====
/-
  What the region leaves in its output array, at the ideal instance: the three products of the node matrix by the
  three weight matrices, entry `(l, n, j)` being the sum over `k` of `X (n, k) · W (l, k, j)`.

  A point's body stores, into slab `l` of its output block, the product of its 5000 rows by weight matrix `l` (a change
  of float format is the identity here, and the matrix unit's product into a zero accumulator is the plain sum). Point
  `t` reads rows `5000 t … 5000 t + 4999` and writes block `t` of the output along the row axis, so what it writes back
  is that block of `products`; the ten blocks cover the array.
-/
import proofs.«112672_j56530359550245_2_alg».proof.Proof.RunKernelIdeal
import proofs.«112672_j56530359550245_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Products

open Cert.KernelIdeal Cert.KernelIdeal.Gen Cert.KernelIdeal.Around
open Idealize.ShloMosaic Idealize.ShloMosaic.TcCoe Idealize.ShloMosaic.ValueIdx Idealize.SL.Sem
open Idealize.ShloMosaic.Pipeline (Dat)
open scoped BigOperators

/-- The three products: entry `(l, n, j)` is the sum over `k` of `X (n, k) · W (l, k, j)`. -/
def products (X : FVec Ideal S50000x128 .f32) (W : FVec Ideal S3x128x128 .f32) : FVec Ideal S3x50000x128 .f32 :=
  fun i => ∑ k : Fin 128, X (ix2 (⟨(i 1).val, (i 1).isLt⟩ : Fin 50000) k)
    * W (ix3 (⟨(i 0).val, (i 0).isLt⟩ : Fin 3) k (⟨(i 2).val, (i 2).isLt⟩ : Fin 128))

/-! ## The matrix unit's dimension numbers: a plain product -/

local notation "dd" => dot_S5000x128_S128x128_S5000x128_1_0_0_1_n_n

theorem lhs_row (i : S5000x128.Idx) (q : (dd).contr.Idx) : ((dd).lhsIdx i q 0).val = (i 0).val := by
  unfold DotDims.lhsIdx
  rw [dif_neg (show ¬(0 : Fin S5000x128.rank) ∈ (dd).lhsBatch by decide),
    dif_pos (show (0 : Fin S5000x128.rank) ∈ (dd).lhsNonContracting by decide)]
  rfl
theorem lhs_col (i : S5000x128.Idx) (q : (dd).contr.Idx) : ((dd).lhsIdx i q 1).val = (q ⟨0, by decide⟩).val :=
  (dd).lhsIdx_val_of_single rfl i q
theorem rhs_row (i : S5000x128.Idx) (q : (dd).contr.Idx) : ((dd).rhsIdx i q 0).val = (q ⟨0, by decide⟩).val :=
  (dd).rhsIdx_val_of_single rfl i q
theorem rhs_col (i : S5000x128.Idx) (q : (dd).contr.Idx) : ((dd).rhsIdx i q 1).val = (i 1).val := by
  unfold DotDims.rhsIdx
  rw [dif_neg (show ¬(1 : Fin S128x128.rank) ∈ (dd).rhsBatch by decide),
    dif_pos (show (1 : Fin S128x128.rank) ∈ (dd).rhsNonContracting by decide)]
  rfl

/-! ## One store's value at an entry -/

/-- The value stored into a slab, at `(0, r, j)`: row `r` of the block times column `j` of the loaded weight matrix. -/
theorem stored_apply (x : Vec Ideal S5000x128 .f32) (w1 : Vec Ideal S1x128x128 .f32) (r : Fin 5000) (j : Fin 128) :
    k0_pay2 (F := Ideal) x w1 (ix3 (0 : Fin 1) r j) = ∑ k : Fin 128, x (ix2 r k) * w1 (ix3 (0 : Fin 1) k j) := by
  unfold k0_pay2 k0_pay1
  refine (shapeCast_addUnit_apply ![5000, 128] _ shapeCasts_S5000x128_S1x5000x128 (ix3 (0 : Fin 1) r j)).trans ?_
  have hi : (fun a : Fin 2 => (ix3 (0 : Fin 1) r j : S1x5000x128.Idx) a.succ) = (ix2 r j : S5000x128.Idx) :=
    funext fun a => by match a with | ⟨0, _⟩ => rfl | ⟨1, _⟩ => rfl
  rw [hi]
  refine (Cert.RowOps.matmul_zero_entry (dd) rfl rfl lhs_row lhs_col rhs_row rhs_col none _ _ r j).trans ?_
  refine Finset.sum_congr rfl fun k _ => ?_
  refine congrArg (x (ix2 r k) * ·) ?_
  refine (shapeCast_dropUnit_apply ![128, 128] w1 shapeCasts_S1x128x128_S128x128 (ix2 k j)).trans ?_
  exact congrArg w1 (funext fun a => by match a with | ⟨0, _⟩ => rfl | ⟨1, _⟩ => rfl | ⟨2, _⟩ => rfl)

/-- The same at any index of a slab: its one leading coordinate is zero. -/
theorem stored_at (x : Vec Ideal S5000x128 .f32) (w1 : Vec Ideal S1x128x128 .f32) (z : S1x5000x128.Idx) :
    k0_pay2 (F := Ideal) x w1 z
      = ∑ k : Fin 128, x (ix2 (⟨(z 1).val, (z 1).isLt⟩ : Fin 5000) k) * w1 (ix3 (0 : Fin 1) k (⟨(z 2).val, (z 2).isLt⟩ : Fin 128)) := by
  have hz : z = ix3 (0 : Fin 1) (⟨(z 1).val, (z 1).isLt⟩ : Fin 5000) (⟨(z 2).val, (z 2).isLt⟩ : Fin 128) :=
    funext fun a => by
      match a with
      | ⟨0, _⟩ => exact Fin.ext (by have h0 : (z 0).val < 1 := (z 0).isLt; show (z 0).val = 0; omega)
      | ⟨1, _⟩ => rfl
      | ⟨2, _⟩ => rfl
  conv_lhs => rw [hz]
  exact stored_apply x w1 _ _

/-! ## The output block after the body -/

/-- Entry `(l, r, j)` of the output block: row `r` of the block of rows times column `j` of weight matrix `l`. -/
def blockProducts (x : Vec Ideal S5000x128 .f32) (w : Vec Ideal S3x128x128 .f32) : Vec Ideal S3x5000x128 .f32 :=
  fun y => ∑ k : Fin 128, x (ix2 (⟨(y 1).val, (y 1).isLt⟩ : Fin 5000) k)
    * w (ix3 (⟨(y 0).val, (y 0).isLt⟩ : Fin 3) k (⟨(y 2).val, (y 2).isLt⟩ : Fin 128))

/-- One slab: the value stored through the slab's rectangle at offset `l` is `blockProducts` there. -/
theorem slab_piece (x : Vec Ideal S5000x128 .f32) (w : Vec Ideal S3x128x128 .f32)
    (l : Nat) (inbW : ∀ a, (![l, 0, 0] : Fin 3 → Nat) a + S1x128x128.size a ≤ S3x128x128.size a)
    (inbY : ∀ a, (![l, 0, 0] : Fin 3 → Nat) a + S1x5000x128.size a ≤ S3x5000x128.size a)
    (z : S1x5000x128.Idx) :
    k0_pay2 (F := Ideal) (View.ld x rRows) (View.ld w (Rect.unit (s := S3x128x128) ![l, 0, 0] S1x128x128.size inbW)) z
      = blockProducts x w ((Rect.unit (s := S3x5000x128) ![l, 0, 0] S1x5000x128.size inbY).emb z) := by
  refine (stored_at _ _ z).trans ?_
  unfold blockProducts
  refine Finset.sum_congr rfl fun k _ => ?_
  refine congrArg₂ (· * ·) ?_ ?_
  · show x (rRows.emb _) = x _
    refine congrArg x (funext fun a => Fin.ext ?_)
    match a with
    | ⟨0, _⟩ => show 0 + 1 * (z 1).val = 0 + 1 * (z 1).val; rfl
    | ⟨1, _⟩ => show 0 + 1 * k.val = k.val; omega
  · show w ((Rect.unit (s := S3x128x128) ![l, 0, 0] S1x128x128.size inbW).emb _) = w _
    refine congrArg w (funext fun a => Fin.ext ?_)
    match a with
    | ⟨0, _⟩ => show l + 1 * 0 = l + 1 * (z 0).val; have h0 : (z 0).val < 1 := (z 0).isLt; omega
    | ⟨1, _⟩ => show 0 + 1 * k.val = k.val; omega
    | ⟨2, _⟩ => show 0 + 1 * (z 2).val = 0 + 1 * (z 2).val; rfl

/-- The output block after the body is `blockProducts` of the two input blocks. -/
theorem slabs_eq (x : Vec Ideal S5000x128 .f32) (w : Vec Ideal S3x128x128 .f32) : slabs (F := Ideal) x w = blockProducts x w := by
  funext y
  unfold slabs
  refine View.canon_apply_of_pieces (blockProducts x w) _ ?_ y (slabs_cover _ _ _ y)
  intro p hp
  simp only [List.mem_cons, List.not_mem_nil, or_false] at hp
  rcases hp with rfl | rfl | rfl
  · exact fun z => slab_piece x w 2 inb_S3x128x128_S1x128x128_2_0_0 inb_S3x5000x128_S1x5000x128_2_0_0 z
  · exact fun z => slab_piece x w 1 inb_S3x128x128_S1x128x128_1_0_0 inb_S3x5000x128_S1x5000x128_1_0_0 z
  · exact fun z => slab_piece x w 0 inb_S3x128x128_S1x128x128_0_0_0 inb_S3x5000x128_S1x5000x128_0_0_0 z

/-! ## What each point writes back, and the whole array -/

variable (m : (ℓ : Loc nD τ sig) → Buf (Elt Ideal) ℓ)

/-- The printed index maps over the grid: point `t` reads block `t` of the rows and the whole of the weights, and
    writes block `t` along the output's row axis. -/
theorem idx_facts : ∀ t : Fin cfg0.N, win0_0.index t (0 : Fin 2) = win0_2.index t (1 : Fin 3)
    ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (2 : Fin 3) = 0 ∧ win0_2.index t (1 : Fin 3) ≤ 9 :=
  (by decide +kernel : ∀ t : Fin grid0.N, _)

/-- Every block along the row axis is some point's. -/
theorem idx_onto : ∀ q : Fin 10, ∃ t : Fin cfg0.N, win0_2.index t = ![0, q.val, 0] :=
  (by decide +kernel : ∀ q : Fin 10, ∃ t : Fin grid0.N, win0_2.index t = ![0, q.val, 0])

/-- What point `t` writes back is block `t` of `products` of the arrays as the region finds them. -/
theorem flushed_eq (c : Dev nD) (t : Fin cfg0.N) :
    (dats m 0 c).flushed 2 t
      = ((cfg0.win 2).blk t).view.read (Elt Ideal) (products (V m c main_arg0) (V m c main_arg2)) := by
  show (cfg0.win 2).cut (grid0.coords t) ((dats m 0 c).after 2 t) = _
  rw [after_out, slabs_eq]
  obtain ⟨e0, e1, e2, e3, e4, e5, e6, e7⟩ := idx_facts t
  funext y
  show blockProducts (iblk m c 0 t) (iblk m c 1 t) y
    = products (V m c main_arg0) (V m c main_arg2) (((cfg0.win 2).blk t).view.emb y)
  unfold blockProducts products
  refine Finset.sum_congr rfl fun k _ => ?_
  refine congrArg₂ (· * ·) ?_ ?_
  · show V m c main_arg0 (((cfg0.win 0).blk t).view.emb _) = V m c main_arg0 _
    refine congrArg (V m c main_arg0) (funext fun a => Fin.ext ?_)
    match a with
    | ⟨0, _⟩ =>
      show win0_0.index t (0 : Fin 2) * 5000 + 1 * (y 1).val = win0_2.index t (1 : Fin 3) * 5000 + 1 * (y 1).val
      omega
    | ⟨1, _⟩ => show win0_0.index t (1 : Fin 2) * 128 + 1 * k.val = k.val; omega
  · show V m c main_arg2 (((cfg0.win 1).blk t).view.emb _) = V m c main_arg2 _
    refine congrArg (V m c main_arg2) (funext fun a => Fin.ext ?_)
    match a with
    | ⟨0, _⟩ =>
      show win0_1.index t (0 : Fin 3) * 3 + 1 * (y 0).val = win0_2.index t (0 : Fin 3) * 3 + 1 * (y 0).val
      omega
    | ⟨1, _⟩ => show win0_1.index t (1 : Fin 3) * 128 + 1 * k.val = k.val; omega
    | ⟨2, _⟩ =>
      show win0_1.index t (2 : Fin 3) * 128 + 1 * (y 2).val = win0_2.index t (2 : Fin 3) * 128 + 1 * (y 2).val
      omega

/-- An index of the output array is in point `t`'s block iff each coordinate is in the block's range on its axis. -/
theorem mem_blk (t : Fin cfg0.N) (i : S3x50000x128.Idx) :
    i ∈ ((cfg0.win 2).blk t).view.set ↔ ∀ a : Fin 3, win0_2.index t a * S3x5000x128.size a ≤ (i a).val
      ∧ (i a).val < win0_2.index t a * S3x5000x128.size a + S3x5000x128.size a := by
  show i ∈ ((View.whole main_v0).slice (win0_2.rect t)).set ↔ _
  rw [View.set_slice_whole, Rect.mem_set_unit]
  exact Iff.rfl

/-- The ten blocks cover the output array: row `n` is in the block of point `n / 5000`. -/
theorem cover (i : S3x50000x128.Idx) :
    ∃ t : Fin cfg0.N, (cfg0.win 2).flush t = true ∧ i ∈ ((cfg0.win 2).blk t).view.set := by
  have hi0 : (i 0).val < 3 := (i 0).isLt
  have hi1 : (i 1).val < 50000 := (i 1).isLt
  have hi2 : (i 2).val < 128 := (i 2).isLt
  obtain ⟨t, ht⟩ := idx_onto ⟨(i 1).val / 5000, by omega⟩
  have q0 : win0_2.index t (0 : Fin 3) = 0 := congrFun ht 0
  have q1 : win0_2.index t (1 : Fin 3) = (i 1).val / 5000 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 3 ≤ (i 0).val ∧ (i 0).val < win0_2.index t (0 : Fin 3) * 3 + 3
    omega
  | ⟨1, _⟩ =>
    show win0_2.index t (1 : Fin 3) * 5000 ≤ (i 1).val ∧ (i 1).val < win0_2.index t (1 : Fin 3) * 5000 + 5000
    omega
  | ⟨2, _⟩ =>
    show win0_2.index t (2 : Fin 3) * 128 ≤ (i 2).val ∧ (i 2).val < win0_2.index t (2 : Fin 3) * 128 + 128
    omega

/-- THE OUTPUT ARRAY after the region: the three products of the launched node matrix by the launched weights. -/
theorem out_array (c : Dev nD) :
    (dats m 0 c).arrAt 2 cfg0.N
      = products (m ((c : Thread nD τ).loc main_arg0)) (m ((c : Thread nD τ).loc main_arg2)) :=
  (dats m 0 c).arrAt_eq_of_cover 2 _ (fun t _ => flushed_eq m c t) cover

end Cert.KernelIdeal.Products

end
-- ==== Proof.LibGatherRows.lean ====
/-
  A gather that picks whole rows of a matrix.

  `x[idx]` for a matrix `x : [N, C]` and a column of integer start indices `idx : [E, 1]` lowers to a gather whose
  offset axis is the result's axis 1, whose collapsed operand axis is 0, and whose start index has the one component for
  operand axis 0, with slices of one row.  Its result at `(e, j)` is `x` at `(row e, j)`, where `row e` is the word
  `idx (e, 0)` read signed and clamped into `[0, N - 1]`: the row depends on `e` alone and the column passes through.
  So such a gather commutes with anything done to `x` row by row — in particular with a product by a matrix on the
  right, entry by entry.
-/
import Idealize.ShloMosaic.Lib.ValueIdx

namespace Cert.GatherRows

open Idealize.ShloMosaic Idealize.ShloMosaic.ValueIdx

variable {α : Type}

/-- Those dimension numbers, for an operand `[N, C]`, start indices `[E, 1]` and a result `[E, C]`; their conditions
    are decided on a program's literal shapes. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the start index `idx (e, 0)`, read signed, clamped into `[0, N - 1]`. -/
def pickedRow {N E w : Nat} (hN : 0 < N) (idx : IVec ⟨2, ![E, 1]⟩ w) (e : Fin E) : Fin N :=
  ⟨min (idx (ix2 e (0 : Fin 1))).toInt.toNat (N - 1), by omega⟩

/-- THE GATHER READ AT `(e, j)`: the operand at the picked row and the same column. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N C E wf) x idx (ix2 e j) = x (ix2 (pickedRow hN idx e) j) := by
  unfold Host.gather
  congr 1
  funext a
  refine Fin.ext ?_
  match a with
  | ⟨0, _⟩ =>
    show (rowsDims N C E wf).start (ix2 e j) idx 0 + (rowsDims N C E wf).batchCoord (ix2 e j) 0
      + (rowsDims N C E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e j) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e j) idx 1 + (rowsDims N C E wf).batchCoord (ix2 e j) 1
      + (rowsDims N C E wf).offCoord (ix2 e j) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept (rowsDims N C E wf) 1).mpr
      ⟨(show ¬ (1 : Fin 2) ∈ ([0] : List (Fin 2)) by decide), List.not_mem_nil⟩)]
    simp only [Nat.zero_add, Nat.add_zero]
    rfl

/-- The same for any record that is those dimension numbers (a program's own record is, by `rfl`). -/
theorem gather_rows_apply_of_eq {N C E w : Nat} (hN : 0 < N)
    (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C])
    (hd : d = rowsDims N C E wf)
    (x : (⟨2, ![N, C]⟩ : Shape).Idx → α) (idx : IVec ⟨2, ![E, 1]⟩ w) (e : Fin E) (j : Fin C) :
    Host.gather d x idx (ix2 e j) = x (ix2 (pickedRow hN idx e) j) := by
  subst hd; exact gather_rows_apply hN wf x idx e j

end Cert.GatherRows
-- ==== Proof.Hoist.lean ====
/-
  The one place the two programs differ. For each edge type the kernel program gathers rows of the already-multiplied
  matrix `X · W_l`; the reference gathers rows of `X` and multiplies them by `W_l`. A gather that picks whole rows reads
  entry `(e, j)` at `(row e, j)`, the row depending on `e` alone, so both are, at `(e, j)`, the sum over `k` of
  `X (row e, k) · W (l, k, j)`: picking rows commutes with a product on the right, entry by entry. No law of arithmetic
  is used beyond reading both sums at the same indices, so nothing here needs the inputs to be finite.
-/
import proofs.«112672_j56530359550245_2_alg».proof.Proof.Products
import proofs.«112672_j56530359550245_2_alg».proof.Proof.LibGatherRows
import proofs.«112672_j56530359550245_2_alg».proof.Proof.LibRowOps
import proofs.«112672_j56530359550245_2_alg».proof.Proof.Gen.ReferenceIdeal.Read
import Idealize.ShloMosaic.Lib.Pipeline.Value
import Idealize.ShloMosaic.Lib.ValueIdx

set_option maxRecDepth 16384

noncomputable section

namespace Cert.Hoist

open Idealize.ShloMosaic Idealize.ShloMosaic.ValueIdx
open Cert.KernelIdeal.Products (products)
open scoped BigOperators

/-- Both programs' row gather is the gather that picks whole rows. -/
theorem kernel_gather_eq : Cert.KernelIdeal.gather_S50000x128_S262144x1_S262144x128_1_0_n_n_0_1_1128
    = Cert.GatherRows.rowsDims 50000 128 262144 Cert.KernelIdeal.gather_S50000x128_S262144x1_S262144x128_1_0_n_n_0_1_1128.wf := rfl
theorem reference_gather_eq : Cert.ReferenceIdeal.gather_S50000x128_S262144x1_S262144x128_1_0_n_n_0_1_1128
    = Cert.GatherRows.rowsDims 50000 128 262144 Cert.ReferenceIdeal.gather_S50000x128_S262144x1_S262144x128_1_0_n_n_0_1_1128.wf := rfl

/-- Slab `l` of the products, as a matrix, at `(n, j)`. -/
theorem slab_apply (X : FVec Ideal Cert.KernelIdeal.S50000x128 .f32) (W : FVec Ideal Cert.KernelIdeal.S3x128x128 .f32)
    (l : Nat) (hl : l < 3) (hY : Cert.KernelIdeal.S3x50000x128.Slices ![l, 0, 0] Cert.KernelIdeal.S1x50000x128)
    (hc : Cert.KernelIdeal.S1x50000x128.ShapeCasts Cert.KernelIdeal.S50000x128) (n : Fin 50000) (j : Fin 128) :
    shapeCast Cert.KernelIdeal.S50000x128 (extractStridedSlice Cert.KernelIdeal.S1x50000x128 ![l, 0, 0] (products X W) hY) hc (ix2 n j)
      = ∑ k : Fin 128, X (ix2 n k) * W (ix3 (⟨l, hl⟩ : Fin 3) k j) := by
  refine (shapeCast_dropUnit_apply ![50000, 128] _ hc (ix2 n j)).trans ?_
  have hcons : (Fin.cons ⟨0, Nat.one_pos⟩ (ix2 n j) : Cert.KernelIdeal.S1x50000x128.Idx) = ix3 (0 : Fin 1) n j :=
    funext fun a => by match a with | ⟨0, _⟩ => rfl | ⟨1, _⟩ => rfl | ⟨2, _⟩ => rfl
  refine (congrArg (extractStridedSlice Cert.KernelIdeal.S1x50000x128 ![l, 0, 0] (products X W) hY) hcons).trans ?_
  refine (extractStridedSlice_apply ![l, 0, 0] (products X W) hY (ix3 (0 : Fin 1) n j) (ix3 (⟨l, hl⟩ : Fin 3) n j) (fun a => by
    match a with
    | ⟨0, _⟩ => show l = l + 0; omega
    | ⟨1, _⟩ => show n.val = 0 + n.val; omega
    | ⟨2, _⟩ => show j.val = 0 + j.val; omega)).trans ?_
  rfl

/-- Weight matrix `l`, as a matrix, at `(k, j)`. -/
theorem weight_apply (W : FVec Ideal Cert.ReferenceIdeal.S3x128x128 .f32)
    (l : Nat) (hl : l < 3) (hW : Cert.ReferenceIdeal.S3x128x128.Slices ![l, 0, 0] Cert.ReferenceIdeal.S1x128x128)
    (hc : Cert.ReferenceIdeal.S1x128x128.ShapeCasts Cert.ReferenceIdeal.S128x128) (k j : Fin 128) :
    shapeCast Cert.ReferenceIdeal.S128x128 (extractStridedSlice Cert.ReferenceIdeal.S1x128x128 ![l, 0, 0] W hW) hc (ix2 k j)
      = W (ix3 (⟨l, hl⟩ : Fin 3) k j) := by
  refine (shapeCast_dropUnit_apply ![128, 128] _ hc (ix2 k j)).trans ?_
  have hcons : (Fin.cons ⟨0, Nat.one_pos⟩ (ix2 k j) : Cert.ReferenceIdeal.S1x128x128.Idx) = ix3 (0 : Fin 1) k j :=
    funext fun a => by match a with | ⟨0, _⟩ => rfl | ⟨1, _⟩ => rfl | ⟨2, _⟩ => rfl
  refine (congrArg (extractStridedSlice Cert.ReferenceIdeal.S1x128x128 ![l, 0, 0] W hW) hcons).trans ?_
  exact extractStridedSlice_apply ![l, 0, 0] W hW (ix3 (0 : Fin 1) k j) (ix3 (⟨l, hl⟩ : Fin 3) k j) (fun a => by
    match a with
    | ⟨0, _⟩ => show l = l + 0; omega
    | ⟨1, _⟩ => show k.val = 0 + k.val; omega
    | ⟨2, _⟩ => show j.val = 0 + j.val; omega)

/-- THE HOIST: rows of `X · W_l` picked by `idx` are the rows of `X` picked by `idx`, times `W_l`. -/
theorem gather_product (X : FVec Ideal Cert.KernelIdeal.S50000x128 .f32) (W : FVec Ideal Cert.KernelIdeal.S3x128x128 .f32)
    (l : Nat) (hl : l < 3) (hY : Cert.KernelIdeal.S3x50000x128.Slices ![l, 0, 0] Cert.KernelIdeal.S1x50000x128)
    (hcY : Cert.KernelIdeal.S1x50000x128.ShapeCasts Cert.KernelIdeal.S50000x128)
    (hW : Cert.ReferenceIdeal.S3x128x128.Slices ![l, 0, 0] Cert.ReferenceIdeal.S1x128x128)
    (hcW : Cert.ReferenceIdeal.S1x128x128.ShapeCasts Cert.ReferenceIdeal.S128x128)
    (idx : IVec Cert.KernelIdeal.S262144x1 32) :
    Host.gather Cert.KernelIdeal.gather_S50000x128_S262144x1_S262144x128_1_0_n_n_0_1_1128
        (shapeCast Cert.KernelIdeal.S50000x128 (extractStridedSlice Cert.KernelIdeal.S1x50000x128 ![l, 0, 0] (products X W) hY) hcY) idx
      = Host.dotGeneral (F := Ideal) Cert.ReferenceIdeal.dot_S262144x128_S128x128_S262144x128_1_0_0_1_n_n none
          (Host.gather Cert.ReferenceIdeal.gather_S50000x128_S262144x1_S262144x128_1_0_n_n_0_1_1128 X idx)
          (shapeCast Cert.ReferenceIdeal.S128x128 (extractStridedSlice Cert.ReferenceIdeal.S1x128x128 ![l, 0, 0] W hW) hcW) := by
  funext i
  obtain ⟨e, j, rfl⟩ : ∃ (e : Fin 262144) (j : Fin 128), i = ix2 e j := ⟨i 0, i 1, eq_ix2 i⟩
  have hN : 0 < 50000 := by decide
  refine (Cert.GatherRows.gather_rows_apply_of_eq hN _ _ kernel_gather_eq _ idx e j).trans ?_
  refine (slab_apply X W l hl hY hcY _ j).trans ?_
  refine ((Cert.RowOps.dotGeneral_entry Cert.ReferenceIdeal.dot_S262144x128_S128x128_S262144x128_1_0_0_1_n_n rfl rfl
    Cert.ReferenceIdeal.Read.lhs_main_v28_0 Cert.ReferenceIdeal.Read.lhs_main_v28_1
    Cert.ReferenceIdeal.Read.rhs_main_v28_0 Cert.ReferenceIdeal.Read.rhs_main_v28_1 none _ _ e j).trans ?_).symm
  refine Finset.sum_congr rfl fun k _ => ?_
  rw [Cert.GatherRows.gather_rows_apply_of_eq hN _ _ reference_gather_eq X idx e k, weight_apply W l hl hW hcW k j]

end Cert.Hoist

end
-- ==== Proof.Bridge.lean ====
/-
  The kernel program's result against the reference's. After the region the kernel program's lines compute, from the
  region's output array and the adjacency array, the same aggregation the reference computes from the node matrix, the
  weights and the adjacency array — per edge type: the in-degree count of every target, its reciprocal square root per
  edge, the messages scaled by it and summed into their targets — except for where the messages come from: gathered
  rows of the products `X · W_l` on one side, gathered rows of `X` times `W_l` on the other. The region's output array is
  the products (`Products.out_array`), and those two are one matrix (`Hoist.gather_product`); everything else is the
  same term on both sides.
-/
import proofs.«112672_j56530359550245_2_alg».proof.Proof.Products
import proofs.«112672_j56530359550245_2_alg».proof.Proof.Hoist
import proofs.«112672_j56530359550245_2_alg».proof.Proof.Gen.ReferenceIdeal.Run
import Idealize.ShloMosaic.Lib.StableHlo.Run

set_option maxRecDepth 16384

noncomputable section

namespace Cert.Bridge

open Cert.KernelIdeal Cert.KernelIdeal.Gen Cert.KernelIdeal.Around Cert.KernelIdeal.Products
open Idealize.ShloMosaic Idealize.ShloMosaic.TcCoe Idealize.SL.Sem Idealize.ShloMosaic.StableHlo

variable (m : (ℓ : Loc nD τ sig) → Buf (Elt Ideal) ℓ)

/-- What the lines read at the region's result buffer: the products. -/
theorem leaf_out (c : Dev nD) :
    Pipeline.withArrays (cfgs 0).spec c (V0 m c) (fun w => (dats m 0 c).arrAt w (cfgs 0).N) (Proc.devRef .tc main_v0)
      = products (m ((c : Thread nD τ).loc main_arg0)) (m ((c : Thread nD τ).loc main_arg2)) :=
  (Pipeline.withArrays_arr spec0 launch0.win.arr_inj c _ _ 2).trans (out_array m c)

/-- What they read at the adjacency array: its launch contents. -/
theorem leaf_adj (c : Dev nD) :
    Pipeline.withArrays (cfgs 0).spec c (V0 m c) (fun w => (dats m 0 c).arrAt w (cfgs 0).N) (Proc.devRef .tc main_arg1)
      = m ((c : Thread nD τ).loc main_arg1) :=
  Pipeline.withArrays_of_ne _ c (V0 m c) _ main_arg1 (by exact (by decide : ∀ w, Pipeline.arrRef spec0 w ≠ main_arg1))

set_option maxHeartbeats 80000000 in
/-- The kernel program's result buffer after the lines is the reference's result term, for arguments that agree. -/
theorem result_eq (m' : (ℓ : Loc Cert.ReferenceIdeal.nD Cert.ReferenceIdeal.τ Cert.ReferenceIdeal.sig) → Buf (Elt Ideal) ℓ)
    (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    Pipeline.afterTail₀ cfgs (dats m) 0 (V0 m) [hostOps1] c main_v103 = Cert.ReferenceIdeal.Value.res_main_v105 m' c := by
  unfold Pipeline.afterTail₀
  show StableHlo.after hostOps1 _ (Proc.devRef .tc main_v103) = _
  after_results_simp
  simp only [leaf_out m c, leaf_adj m c]
  unfold Cert.ReferenceIdeal.Value.res_main_v105
  rw [h0, h1, h2]
  rw [← Cert.Hoist.gather_product (m ((c.tc : Thread nD τ).loc main_arg0)) (m ((c.tc : Thread nD τ).loc main_arg2)) 0 (by decide)
      slices_S3x50000x128_S1x50000x128_0_0_0 shapeCasts_S1x50000x128_S50000x128,
    ← Cert.Hoist.gather_product (m ((c.tc : Thread nD τ).loc main_arg0)) (m ((c.tc : Thread nD τ).loc main_arg2)) 1 (by decide)
      slices_S3x50000x128_S1x50000x128_1_0_0 shapeCasts_S1x50000x128_S50000x128,
    ← Cert.Hoist.gather_product (m ((c.tc : Thread nD τ).loc main_arg0)) (m ((c.tc : Thread nD τ).loc main_arg2)) 2 (by decide)
      slices_S3x50000x128_S1x50000x128_2_0_0 shapeCasts_S1x50000x128_S50000x128]
  rfl

end Cert.Bridge

end
-- ==== Proof.lean ====
/-
  The proof of `Cert.Claim`: the kernel program and its reference compute the same aggregation of messages over a graph
  with three edge types.

  The kernel program first forms, in one region over ten blocks of 5000 nodes, the three products `X · W_l` of the node
  matrix by the per-type weight matrices, and then, on the host, per edge type gathers the rows of the product at the
  edges' sources, scales each by the reciprocal square root of its target's in-degree (at least one), and sums the
  scaled rows into their targets. The reference gathers the rows of `X` first and multiplies them by `W_l`. At the
  ideal instance — floats extended reals, a change of format the identity, the matrix unit's product a plain sum — a
  gather of whole rows commutes with a product on the right entry by entry (Proof/Hoist.lean), and every other line is
  the same on both sides (Proof/Bridge.lean); no law that needs finite inputs is used, so the precondition is never
  opened.

  Proof/RunKernel.lean and Proof/RunKernelIdeal.lean run @main around its region at the word level and at the ideal
  instance (the three frames; the reference's is its run with the result dropped); Proof/Products.lean reads the
  region's output array as the products; `preserves` is trivial, the idealization having rewritten nothing.
-/
import proofs.«112672_j56530359550245_2_alg».proof.Defs
import proofs.«112672_j56530359550245_2_alg».proof.Proof.Gen.Kernel
import proofs.«112672_j56530359550245_2_alg».proof.Proof.Gen.KernelIdeal
import proofs.«112672_j56530359550245_2_alg».proof.Proof.Gen.ReferenceIdeal
import proofs.«112672_j56530359550245_2_alg».proof.Proof.Gen.Pre_finite_inputs
import proofs.«112672_j56530359550245_2_alg».proof.Proof.Gen.ReferenceIdeal.Run
import proofs.«112672_j56530359550245_2_alg».proof.Proof.RunKernel
import proofs.«112672_j56530359550245_2_alg».proof.Proof.RunKernelIdeal
import proofs.«112672_j56530359550245_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Around.frame m ρ

theorem frame_ki : Cert.frame_KernelIdeal := fun m ρ _ => Cert.KernelIdeal.Around.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result term of the (agreeing) arguments: the kernel program's result buffer
    bypasses the region, so it ends at what the lines compute, which is that term; the staged arguments are never
    written back and no line writes the adjacency array. -/
theorem algebraic : Cert.algebraic_KernelIdeal_ReferenceIdeal := by
  intro m ρ m' ρ' _ hagree
  refine ⟨fun c => Cert.ReferenceIdeal.Value.res_main_v105 m' c, ?_, ?_⟩
  · refine (θ_run Cert.KernelIdeal.defs _ _).mono (fun r h c => ?_) (Cert.KernelIdeal.Around.run_main (F := Ideal) m ρ)
    exact ⟨((h c).2 Cert.KernelIdeal.main_v103 (Pipeline.mem_restRefs_of Cert.KernelIdeal.main_v103 (by decide) (by decide))).trans
        (Cert.Bridge.result_eq m m' c (hagree c).1 (hagree c).2.1 (hagree c).2.2),
      ((h c).1 0).trans (((Cert.KernelIdeal.Around.dats m 0 c).arrAt_in 0 rfl _).trans (Cert.KernelIdeal.Around.A_eq m c 0)),
      ((h c).2 Cert.KernelIdeal.main_arg1 (Pipeline.mem_restRefs_of Cert.KernelIdeal.main_arg1 (by decide) (by decide))).trans
        (Cert.KernelIdeal.Around.tail_arg1 m (Cert.KernelIdeal.Around.dats m) c),
      ((h c).1 1).trans (((Cert.KernelIdeal.Around.dats m 0 c).arrAt_in 1 rfl _).trans (Cert.KernelIdeal.Around.A_eq m c 1))⟩
  · exact (θ_run Cert.ReferenceIdeal.defs _ _).mono (fun _ h c => h c) (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
